-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x128 : Shape := ⟨2, ![131072, 128]⟩
abbrev S131072x16 : Shape := ⟨2, ![131072, 16]⟩
abbrev S144x256 : Shape := ⟨2, ![144, 256]⟩
abbrev S256 : Shape := ⟨1, ![256]⟩
abbrev S512x768 : Shape := ⟨2, ![512, 768]⟩
abbrev S768 : Shape := ⟨1, ![768]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S131072x16 : S_.BroadcastsInDim S131072x16 (![] : Fin 0 → Fin S131072x16.rank)
  reducesTo_S131072x16_S_d0_1 : S131072x16.ReducesTo [0, 1] S_
  bcast_S_S144x256 : S_.BroadcastsInDim S144x256 (![] : Fin 0 → Fin S144x256.rank)
  reducesTo_S144x256_S_d0_1 : S144x256.ReducesTo [0, 1] S_
  bcast_S_S256 : S_.BroadcastsInDim S256 (![] : Fin 0 → Fin S256.rank)
  reducesTo_S256_S_d0 : S256.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S256 .f32) (main_arg5 : FVec F S512x768 .f32) (main_arg6 : FVec F S768 .f32) (main_arg7 : FVec F S768 .f32) (main_v13 : IVec S_ 1) (main_v16 : IVec S144x256 1) : IVec S_ 1 :=
  let main_c_5 : IVec S_ 1 := constantI S_ 1 1#1
  let main_v17 : IVec S_ 1 := (fun x v => Host.reduce IntOp.andi x v reducesTo_S144x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x768 .f32 := Host.absf main_arg5
  let main_cst_8 : FVec F S_ .f32 := constant S_ .f32 0x7F800000#32
  let main_v25 : FVec F S512x768 .f32 := broadcastInDim S512x768 ![] bcast_S_S512x768 main_cst_8
  let main_v26 : IVec S512x768 1 := cmpf .olt main_v24 main_v25
  let main_c_9 : IVec S_ 1 := constantI S_ 1 1#1
  let main_v27 : IVec S_ 1 := (fun x v => Host.reduce IntOp.andi x v reducesTo_S512x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_v33

def fn {F : FTy → Type} [FloatOps F] (main_arg0 : FVec F S131072x256 .f32) (main_arg1 : FVec F S131072x128 .f32) (main_arg2 : FVec F S131072x16 .f32) (main_arg3 : FVec F S144x256 .f32) (main_arg4 : FVec F S256 .f32) (main_arg5 : FVec F S512x768 .f32) (main_arg6 : FVec F S768 .f32) (main_arg7 : FVec F S768 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x16 .f32 := Host.absf main_arg2
  let main_cst_2 : FVec F S_ .f32 := constant S_ .f32 0x7F800000#32
  let main_v10 : FVec F S131072x16 .f32 := broadcastInDim S131072x16 ![] bcast_S_S131072x16 main_cst_2
  let main_v11 : IVec S131072x16 1 := cmpf .olt main_v9 main_v10
  let main_c_3 : IVec S_ 1 := constantI S_ 1 1#1
  let main_v12 : IVec S_ 1 := (fun x v => Host.reduce IntOp.andi x v reducesTo_S131072x16_S_d0_1 h_S_) main_v11 main_c_3
  let main_v13 : IVec S_ 1 := andi main_v8 main_v12
  let main_v14 : FVec F S144x256 .f32 := Host.absf main_arg3
  let main_cst_4 : FVec F S_ .f32 := constant S_ .f32 0x7F800000#32
  let main_v15 : FVec F S144x256 .f32 := broadcastInDim S144x256 ![] bcast_S_S144x256 main_cst_4
  let main_v16 : IVec S144x256 1 := cmpf .olt main_v14 main_v15
  fn_part1 (F := F) main_arg4 main_arg5 main_arg6 main_arg7 main_v13 main_v16
-- ==== Kernel.lean ====
abbrev S131072x256 : Shape := ⟨2, ![131072, 256]⟩
abbrev S131072x128 : Shape := ⟨2, ![131072, 128]⟩
abbrev S131072x16 : Shape := ⟨2, ![131072, 16]⟩
abbrev S144x256 : Shape := ⟨2, ![144, 256]⟩
abbrev S256 : Shape := ⟨1, ![256]⟩
abbrev S512x768 : Shape := ⟨2, ![512, 768]⟩
abbrev S768 : Shape := ⟨1, ![768]⟩
abbrev S128x256 : Shape := ⟨2, ![128, 256]⟩
abbrev S16x256 : Shape := ⟨2, ![16, 256]⟩
abbrev S1x256 : Shape := ⟨2, ![1, 256]⟩
abbrev S1x768 : Shape := ⟨2, ![1, 768]⟩
abbrev S2048x256 : Shape := ⟨2, ![2048, 256]⟩
abbrev S2048x128 : Shape := ⟨2, ![2048, 128]⟩
abbrev S2048x16 : Shape := ⟨2, ![2048, 16]⟩
abbrev S2048x512 : Shape := ⟨2, ![2048, 512]⟩
abbrev S2048x768 : Shape := ⟨2, ![2048, 768]⟩
abbrev S2048 : Shape := ⟨1, ![2048]⟩
abbrev S2048x1 : Shape := ⟨2, ![2048, 1]⟩

abbrev nBuf : Space → Nat
  | .hbm => 17
  | .vmem => 14
  | .smem => 0
  | _ => 0

abbrev bufTy : (tb : Table) → Fin (tcTables nBuf tb) → BufTy
  | .hbm, ⟨0, _⟩ => ⟨S131072x256, .f32⟩
  | .hbm, ⟨1, _⟩ => ⟨S131072x128, .f32⟩
  | .hbm, ⟨2, _⟩ => ⟨S131072x16, .f32⟩
  | .hbm, ⟨3, _⟩ => ⟨S144x256, .f32⟩
  | .hbm, ⟨4, _⟩ => ⟨S256, .f32⟩
  | .hbm, ⟨5, _⟩ => ⟨S512x768, .f32⟩
  | .hbm, ⟨6, _⟩ => ⟨S768, .f32⟩
  | .hbm, ⟨7, _⟩ => ⟨S768, .f32⟩
  | .hbm, ⟨8, _⟩ => ⟨S128x256, .f32⟩
  | .hbm, ⟨9, _⟩ => ⟨S128x256, .bf16⟩
  | .hbm, ⟨10, _⟩ => ⟨S16x256, .f32⟩
  | .hbm, ⟨11, _⟩ => ⟨S16x256, .bf16⟩
  | .hbm, ⟨12, _⟩ => ⟨S512x768, .bf16⟩
  | .hbm, ⟨13, _⟩ => ⟨S1x256, .f32⟩
  | .hbm, ⟨14, _⟩ => ⟨S1x768, .f32⟩
  | .hbm, ⟨15, _⟩ => ⟨S1x768, .f32⟩
  | .hbm, ⟨16, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S2048x128, .f32⟩
  | .local _ .vmem, ⟨3, _⟩ => ⟨S2048x128, .f32⟩
  | .local _ .vmem, ⟨4, _⟩ => ⟨S2048x16, .f32⟩
  | .local _ .vmem, ⟨5, _⟩ => ⟨S2048x16, .f32⟩
  | .local _ .vmem, ⟨6, _⟩ => ⟨S128x256, .bf16⟩
  | .local _ .vmem, ⟨7, _⟩ => ⟨S16x256, .bf16⟩
  | .local _ .vmem, ⟨8, _⟩ => ⟨S1x256, .f32⟩
  | .local _ .vmem, ⟨9, _⟩ => ⟨S512x768, .bf16⟩
  | .local _ .vmem, ⟨10, _⟩ => ⟨S1x768, .f32⟩
  | .local _ .vmem, ⟨11, _⟩ => ⟨S1x768, .f32⟩
  | .local _ .vmem, ⟨12, _⟩ => ⟨S2048x256, .f32⟩
  | .local _ .vmem, ⟨13, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S144x256_S128x256_0_0 : S144x256.Slices ![0, 0] S128x256
  bitsLt_bf16_f32 : FTy.bits .bf16 < FTy.bits .f32
  slices_S144x256_S16x256_128_0 : S144x256.Slices ![128, 0] S16x256
  shapeCasts_S256_S1x256 : S256.ShapeCasts S1x256
  shapeCasts_S768_S1x768 : S768.ShapeCasts S1x768
  inb_S2048x256_S2048x256_0_0 : ∀ a, (![0, 0] : Fin 2 → Nat) a + S2048x256.size a ≤ S2048x256.size a
  h_S2048x256 : 0 < S2048x256.numel
  inb_S2048x128_S2048x128_0_0 : ∀ a, (![0, 0] : Fin 2 → Nat) a + S2048x128.size a ≤ S2048x128.size a
  h_S2048x128 : 0 < S2048x128.numel
  inb_S2048x16_S2048x16_0_0 : ∀ a, (![0, 0] : Fin 2 → Nat) a + S2048x16.size a ≤ S2048x16.size a
  h_S2048x16 : 0 < S2048x16.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  concatenates_S2048x256_S2048x256_S2048x512_d1 : Shape.Concatenates [S2048x256, S2048x256] S2048x512 1
  inb_S512x768_S512x768_0_0 : ∀ a, (![0, 0] : Fin 2 → Nat) a + S512x768.size a ≤ S512x768.size a
  h_S512x768 : 0 < S512x768.numel
  shapeCasts_S512x768_S512x768 : S512x768.ShapeCasts S512x768
  reduces_S2048x768_S2048 : S2048x768.Reduces [1] S2048
  shapeCasts_S2048_S2048x1 : S2048.ShapeCasts S2048x1
  broadcasts_S2048x1_S2048x768 : S2048x1.Broadcasts S2048x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  dot_S2048x128_S128x256_S2048x256_1_0_0_1_n_n_wf : DotDims.WF S2048x128 S128x256 S2048x256 [1] [0] [0] [1] [] []
  dot_S2048x16_S16x256_S2048x256_1_0_0_1_n_n_wf : DotDims.WF S2048x16 S16x256 S2048x256 [1] [0] [0] [1] [] []
  dot_S2048x512_S512x768_S2048x768_1_0_0_1_n_n_wf : DotDims.WF S2048x512 S512x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S131072x16.size a
  hwx0_2 : ∀ i : grid0.Coords, EltTy.bits .f32 = 32 ∨ (Rect.block (s := S131072x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x256.size a
  hwx0_4 : ∀ i : grid0.Coords, EltTy.bits .bf16 = 32 ∨ (Rect.block (s := S16x256) S16x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S512x768.size a
  hwx0_6 : ∀ i : grid0.Coords, EltTy.bits .bf16 = 32 ∨ (Rect.block (s := S512x768) S512x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S131072x256.size a
  hwx0_9 : ∀ i : grid0.Coords, EltTy.bits .f32 = 32 ∨ (Rect.block (s := S131072x256) S2048x256.size (cc0_transform_9 i) (hinb0_9 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S2048x512_S512x768_S2048x768_1_0_0_1_n_n : DotDims S2048x512 S512x768 S2048x768 where
  lhsContracting := [1]
  rhsContracting := [0]
  lhsNonContracting := [0]
  rhsNonContracting := [1]
  lhsBatch := []
  rhsBatch := []
  wf := dot_S2048x512_S512x768_S2048x768_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x128 : Shape := ⟨2, ![131072, 128]⟩
abbrev S131072x16 : Shape := ⟨2, ![131072, 16]⟩
abbrev S144x256 : Shape := ⟨2, ![144, 256]⟩
abbrev S256 : Shape := ⟨1, ![256]⟩
abbrev S512x768 : Shape := ⟨2, ![512, 768]⟩
abbrev S768 : Shape := ⟨1, ![768]⟩
abbrev S131072x144 : Shape := ⟨2, ![131072, 144]⟩
abbrev S1x256 : Shape := ⟨2, ![1, 256]⟩
abbrev S131072x512 : Shape := ⟨2, ![131072, 512]⟩
abbrev S131072x768 : Shape := ⟨2, ![131072, 768]⟩
abbrev S_ : Shape := ⟨0, ![]⟩
abbrev S131072 : Shape := ⟨1, ![131072]⟩
abbrev S131072x1 : Shape := ⟨2, ![131072, 1]⟩
abbrev S1x768 : Shape := ⟨2, ![1, 768]⟩

abbrev nBuf : Space → Nat
  | .hbm => 74
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x128, .f32⟩
  | .hbm, ⟨2, _⟩ => ⟨S131072x16, .f32⟩
  | .hbm, ⟨3, _⟩ => ⟨S144x256, .f32⟩
  | .hbm, ⟨4, _⟩ => ⟨S256, .f32⟩
  | .hbm, ⟨5, _⟩ => ⟨S512x768, .f32⟩
  | .hbm, ⟨6, _⟩ => ⟨S768, .f32⟩
  | .hbm, ⟨7, _⟩ => ⟨S768, .f32⟩
  | .hbm, ⟨8, _⟩ => ⟨S131072x144, .f32⟩
  | .hbm, ⟨9, _⟩ => ⟨S131072x256, .f32⟩
  | .hbm, ⟨10, _⟩ => ⟨S1x256, .f32⟩
  | .hbm, ⟨11, _⟩ => ⟨S131072x256, .f32⟩
  | .hbm, ⟨12, _⟩ => ⟨S131072x256, .f32⟩
  | .hbm, ⟨13, _⟩ => ⟨S131072x512, .f32⟩
  | .hbm, ⟨14, _⟩ => ⟨S131072x768, .f32⟩
  | .hbm, ⟨15, _⟩ => ⟨S_, .f32⟩
  | .hbm, ⟨16, _⟩ => ⟨S131072, .f32⟩
  | .hbm, ⟨17, _⟩ => ⟨S131072x1, .f32⟩
  | .hbm, ⟨18, _⟩ => ⟨S_, .f32⟩
  | .hbm, ⟨19, _⟩ => ⟨S131072x1, .f32⟩
  | .hbm, ⟨20, _⟩ => ⟨S131072x1, .f32⟩
  | .hbm, ⟨21, _⟩ => ⟨S131072x768, .f32⟩
  | .hbm, ⟨22, _⟩ => ⟨S131072x768, .f32⟩
  | .hbm, ⟨23, _⟩ => ⟨S131072x768, .f32⟩
  | .hbm, ⟨24, _⟩ => ⟨S_, .f32⟩
  | .hbm, ⟨25, _⟩ => ⟨S131072, .f32⟩
  | .hbm, ⟨26, _⟩ => ⟨S131072x1, .f32⟩
  | .hbm, ⟨27, _⟩ => ⟨S_, .f32⟩
  | .hbm, ⟨28, _⟩ => ⟨S131072x1, .f32⟩
  | .hbm, ⟨29, _⟩ => ⟨S131072x1, .f32⟩
  | .hbm, ⟨30, _⟩ => ⟨S131072x768, .f32⟩
  | .hbm, ⟨31, _⟩ => ⟨S131072x768, .f32⟩
  | .hbm, ⟨32, _⟩ => ⟨S_, .f32⟩
  | .hbm, ⟨33, _⟩ => ⟨S131072x1, .f32⟩
  | .hbm, ⟨34, _⟩ => ⟨S131072x1, .f32⟩
  | .hbm, ⟨35, _⟩ => ⟨S131072x1, .f32⟩
  | .hbm, ⟨36, _⟩ => ⟨S131072x768, .f32⟩
  | .hbm, ⟨37, _⟩ => ⟨S131072x768, .f32⟩
  | .hbm, ⟨38, _⟩ => ⟨S1x768, .f32⟩
  | .hbm, ⟨39, _⟩ => ⟨S131072x768, .f32⟩
  | .hbm, ⟨40, _⟩ => ⟨S131072x768, .f32⟩
  | .hbm, ⟨41, _⟩ => ⟨S1x768, .f32⟩
  | .hbm, ⟨42, _⟩ => ⟨S131072x768, .f32⟩
  | .hbm, ⟨43, _⟩ => ⟨S131072x768, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S_, .f32⟩
  | .hbm, ⟨50, _⟩ => ⟨S131072x256, .f32⟩
  | .hbm, ⟨51, _⟩ => ⟨S131072x256, .f32⟩
  | .hbm, ⟨52, _⟩ => ⟨S_, .f32⟩
  | .hbm, ⟨53, _⟩ => ⟨S131072x256, .f32⟩
  | .hbm, ⟨54, _⟩ => ⟨S131072x256, .f32⟩
  | .hbm, ⟨55, _⟩ => ⟨S131072x256, .f32⟩
  | .hbm, ⟨56, _⟩ => ⟨S131072x256, .f32⟩
  | .hbm, ⟨57, _⟩ => ⟨S_, .f32⟩
  | .hbm, ⟨58, _⟩ => ⟨S131072x256, .f32⟩
  | .hbm, ⟨59, _⟩ => ⟨S131072x256, .f32⟩
  | .hbm, ⟨60, _⟩ => ⟨S131072x256, .f32⟩
  | .hbm, ⟨61, _⟩ => ⟨S131072x256, .f32⟩
  | .hbm, ⟨62, _⟩ => ⟨S_, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S131072x256, .f32⟩
  | .hbm, ⟨67, _⟩ => ⟨S131072x256, .f32⟩
  | .hbm, ⟨68, _⟩ => ⟨S131072x256, .f32⟩
  | .hbm, ⟨69, _⟩ => ⟨S_, .f32⟩
  | .hbm, ⟨70, _⟩ => ⟨S131072x256, .f32⟩
  | .hbm, ⟨71, _⟩ => ⟨S131072x256, .f32⟩
  | .hbm, ⟨72, _⟩ => ⟨S131072x256, .f32⟩
  | .hbm, ⟨73, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  concatenates_S131072x128_S131072x16_S131072x144_d1 : Shape.Concatenates [S131072x128, S131072x16] S131072x144 1
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  concatenates_S131072x256_S131072x256_S131072x512_d1 : Shape.Concatenates [S131072x256, S131072x256] S131072x512 1
  reducesTo_S131072x768_S131072_d1 : S131072x768.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x768_0_1 : S131072x1.BroadcastsInDim S131072x768 (![0, 1] : Fin 2 → Fin S131072x768.rank)
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  bcast_S_S131072x256 : S_.BroadcastsInDim S131072x256 (![] : Fin 0 → Fin S131072x256.rank)
  dot_S131072x144_S144x256_S131072x256_1_0_0_1_n_n_wf : DotDims.WF S131072x144 S144x256 S131072x256 [1] [0] [0] [1] [] []
  dot_S131072x512_S512x768_S131072x768_1_0_0_1_n_n_wf : DotDims.WF S131072x512 S512x768 S131072x768 [1] [0] [0] [1] [] []

variable [Facts₀]

def dot_S131072x144_S144x256_S131072x256_1_0_0_1_n_n : DotDims S131072x144 S144x256 S131072x256 where
  lhsContracting := [1]
  rhsContracting := [0]
  lhsNonContracting := [0]
  rhsNonContracting := [1]
  lhsBatch := []
  rhsBatch := []
  wf := dot_S131072x144_S144x256_S131072x256_1_0_0_1_n_n_wf
def dot_S131072x512_S512x768_S131072x768_1_0_0_1_n_n : DotDims S131072x512 S512x768 S131072x768 where
  lhsContracting := [1]
  rhsContracting := [0]
  lhsNonContracting := [0]
  rhsNonContracting := [1]
  lhsBatch := []
  rhsBatch := []
  wf := dot_S131072x512_S512x768_S131072x768_1_0_0_1_n_n_wf

class Facts : Prop extends Facts₀ where

variable [Facts]
-- ==== Proof.Spec.lean ====
/-
  One row of the recurrent cell, on the extended reals.

  For one batch row with stochastic state `s` (128 entries), action `a` (16 entries) and deterministic state `d`
  (256 entries):
    * the projected token  tok h = Σ_k s k · w₁ k h + Σ_k a k · w₂ k h + b h,  where w₁ is the first 128 rows of the
      projection matrix and w₂ its last 16;
    * the joined row  cat = (tok, d), 512 entries; the pre-activation  x n = Σ_j cat j · cw j n,  768 entries;
    * its layer normalisation  y n = (x n − μ) · (σ² + ε)^(−1/2) · g n + β n  with  μ = (Σ x)/768  and
      σ² = (Σ (x − μ)²)/768;
    * the gates: reset = logistic (y c), candidate = tanh (reset · y (256 + c)), update = logistic (y (512 + c) − 1),
      and the new state  update · candidate + (1 − update) · d c.
  Sums are finite sums in the commutative monoid of the extended reals; quotient, reciprocal square root, logistic and
  tanh are the exact functions with their conventions at the infinities.  The one law proved here is that a sum over
  144 indices is the sum over its first 128 plus the sum over its last 16.
-/
import Idealize.ShloMosaic.PureOps.Ideal
import Idealize.ShloMosaic.Lib.ValueIdx

noncomputable section

open scoped BigOperators

namespace Cert.Gru

open Idealize.ShloMosaic Idealize.ShloMosaic.ValueIdx

/-- The number one, as both programs spell it. -/
abbrev one : EReal := Ideal.ofBits .f32 0x3F800000#32
/-- The row width 768, as both programs spell it. -/
abbrev width : EReal := Ideal.ofBits .f32 0x44400000#32
/-- The variance offset, the f32 nearest to 10⁻⁵ in both programs. -/
abbrev eps : EReal := Ideal.ofBits .f32 0x3727C5AC#32

/-- Row `k` of the first 128 rows of the projection matrix, as a row of all 144. -/
def lo (k : Fin 128) : Fin 144 := ⟨k.val, by omega⟩
/-- Row `k` of the last 16 rows of the projection matrix, as a row of all 144. -/
def hi (k : Fin 16) : Fin 144 := ⟨128 + k.val, by omega⟩

/-- A sum over 144 indices is the sum over the first 128 plus the sum over the last 16. -/
theorem sum_lo_hi (f : Fin 144 → EReal) : ∑ k, f k = ∑ k : Fin 128, f (lo k) + ∑ k : Fin 16, f (hi k) :=
  Fin.sum_univ_add (a := 128) (b := 16) f

/-- The projected token. -/
def tok (s : Fin 128 → EReal) (a : Fin 16 → EReal) (w₁ : Fin 128 → Fin 256 → EReal) (w₂ : Fin 16 → Fin 256 → EReal)
    (b : Fin 256 → EReal) (h : Fin 256) : EReal :=
  (∑ k, s k * w₁ k h) + (∑ k, a k * w₂ k h) + b h

/-- Two rows of 256 entries laid end to end. -/
def cat (t d : Fin 256 → EReal) (j : Fin 512) : EReal :=
  if h : j.val < 256 then t ⟨j.val, h⟩ else d ⟨j.val - 256, by omega⟩

/-- The pre-activation: the joined row times the core matrix. -/
def pre (u : Fin 512 → EReal) (cw : Fin 512 → Fin 768 → EReal) (n : Fin 768) : EReal := ∑ j, u j * cw j n

/-- The mean of 768 numbers. -/
def mean (x : Fin 768 → EReal) : EReal := Ideal.div (∑ n, x n) width

/-- Layer normalisation of a row of 768 with gain `g` and offset `β`. -/
def normed (x g β : Fin 768 → EReal) (n : Fin 768) : EReal :=
  (x n - mean x) * Ideal.rsqrt (mean (fun k => (x k - mean x) * (x k - mean x)) + eps) * g n + β n

/-- Column `c` of the reset third, of the candidate third and of the update third of a row of 768. -/
def c₀ (c : Fin 256) : Fin 768 := ⟨c.val, by omega⟩
def c₁ (c : Fin 256) : Fin 768 := ⟨c.val + 256, by omega⟩
def c₂ (c : Fin 256) : Fin 768 := ⟨c.val + 512, by omega⟩

/-- The gated update of the deterministic state. -/
def gate (y : Fin 768 → EReal) (d : Fin 256 → EReal) (c : Fin 256) : EReal :=
  Ideal.logistic (y (c₂ c) - one) * Ideal.tanh (Ideal.logistic (y (c₀ c)) * y (c₁ c))
    + (one - Ideal.logistic (y (c₂ c) - one)) * d c

/-- One row of the cell. -/
def cell (s : Fin 128 → EReal) (a : Fin 16 → EReal) (d : Fin 256 → EReal) (w₁ : Fin 128 → Fin 256 → EReal)
    (w₂ : Fin 16 → Fin 256 → EReal) (b : Fin 256 → EReal) (cw : Fin 512 → Fin 768 → EReal) (g β : Fin 768 → EReal)
    (c : Fin 256) : EReal :=
  gate (normed (pre (cat (tok s a w₁ w₂ b) d) cw) g β) d c

/-- The cell at row `r`, column `c` of the batch, from the eight argument arrays. -/
def cellAt (D : (⟨2, ![131072, 256]⟩ : Shape).Idx → EReal) (S : (⟨2, ![131072, 128]⟩ : Shape).Idx → EReal)
    (A : (⟨2, ![131072, 16]⟩ : Shape).Idx → EReal) (W : (⟨2, ![144, 256]⟩ : Shape).Idx → EReal)
    (B : (⟨1, ![256]⟩ : Shape).Idx → EReal) (C : (⟨2, ![512, 768]⟩ : Shape).Idx → EReal)
    (g β : (⟨1, ![768]⟩ : Shape).Idx → EReal) (r : Fin 131072) (c : Fin 256) : EReal :=
  cell (fun k => S (ix2 r k)) (fun k => A (ix2 r k)) (fun k => D (ix2 r k)) (fun k h => W (ix2 (lo k) h))
    (fun k h => W (ix2 (hi k) h)) (fun h => B (ix1 h)) (fun j n => C (ix2 j n)) (fun n => g (ix1 n)) (fun n => β (ix1 n)) c

/-- The whole result array. -/
def G (D : (⟨2, ![131072, 256]⟩ : Shape).Idx → EReal) (S : (⟨2, ![131072, 128]⟩ : Shape).Idx → EReal)
    (A : (⟨2, ![131072, 16]⟩ : Shape).Idx → EReal) (W : (⟨2, ![144, 256]⟩ : Shape).Idx → EReal)
    (B : (⟨1, ![256]⟩ : Shape).Idx → EReal) (C : (⟨2, ![512, 768]⟩ : Shape).Idx → EReal)
    (g β : (⟨1, ![768]⟩ : Shape).Idx → EReal) : (⟨2, ![131072, 256]⟩ : Shape).Idx → EReal :=
  fun i => cellAt D S A W B C g β (i 0) (i 1)

theorem G_ix2 (D : (⟨2, ![131072, 256]⟩ : Shape).Idx → EReal) (S : (⟨2, ![131072, 128]⟩ : Shape).Idx → EReal)
    (A : (⟨2, ![131072, 16]⟩ : Shape).Idx → EReal) (W : (⟨2, ![144, 256]⟩ : Shape).Idx → EReal)
    (B : (⟨1, ![256]⟩ : Shape).Idx → EReal) (C : (⟨2, ![512, 768]⟩ : Shape).Idx → EReal)
    (g β : (⟨1, ![768]⟩ : Shape).Idx → EReal) (r : Fin 131072) (c : Fin 256) :
    G D S A W B C g β (ix2 r c) = cellAt D S A W B C g β r c := rfl

/-- The f32 pattern of 1.0 is the number one. -/
theorem one_eq : one = 1 := by
  simp [one, Ideal.ofBits, Ideal.ieee, -EReal.coe_mul]; norm_num

/-- The logistic function spelt as the quotient 1 / (1 + e^(−x)) over the f32 pattern of one. -/
theorem logistic_spelt (x : EReal) : Ideal.div one (one + Ideal.exp (-x)) = Ideal.logistic x := by
  rw [one_eq]; rfl

end Cert.Gru

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibConcatColumns.lean ====
/-
  Two arrays laid side by side.

  An `[m, n₁]` array and an `[m, n₂]` array joined along their second axis give an `[m, N]` array whose entry at
  `(p, j)` is the first array's entry at `(p, j)` when `j` is below `n₁`, and the second array's entry at
  `(p, j − n₁)` otherwise.
-/
import Idealize.ShloMosaic.Lib.Pipeline.Value
import Idealize.ShloMosaic.Lib.ValueIdx

namespace Cert.LibConcatColumns

open Idealize.ShloMosaic Idealize.ShloMosaic.ValueIdx

variable {α : Type}

/-- Joined along the second axis, at a column `j` of the first piece (`k`, with the same value) the joined array reads
    the first piece. -/
theorem concat_cols_left {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₁)
    (hk : k.val = j.val) :
    concatenate ⟨2, ![m, N]⟩ 1 [⟨⟨2, ![m, n₁]⟩, u⟩, ⟨⟨2, ![m, n₂]⟩, v⟩] h (ix2 p j) = u (ix2 p k) :=
  concatenate_pair_apply_left 1 u v h (ix2 p j) rfl (ix2 p k) fun b =>
    match b with
    | ⟨0, _⟩ => rfl
    | ⟨1, _⟩ => hk

/-- Joined along the second axis, at a column `j` past the first piece (`k + n₁ = j`) the joined array reads the
    second piece at column `k`. -/
theorem concat_cols_right {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₂)
    (hk : k.val + n₁ = j.val) :
    concatenate ⟨2, ![m, N]⟩ 1 [⟨⟨2, ![m, n₁]⟩, u⟩, ⟨⟨2, ![m, n₂]⟩, v⟩] h (ix2 p j) = v (ix2 p k) :=
  concatenate_pair_apply_right 1 u v h (ix2 p j) rfl rfl (ix2 p k)
    (fun b hb =>
      match b, hb with
      | ⟨0, _⟩, _ => rfl
      | ⟨1, _⟩, hb => absurd rfl hb)
    hk

end Cert.LibConcatColumns
-- ==== Proof.KernelRow.lean ====
/-
  One grid step of the kernel computes, in each of its 2048 rows, one row of the recurrent cell.

  The body's arithmetic, read at row `p` and column `q` of the step's blocks: the two projection products and the
  bias give the token row; the token row and the deterministic row, laid end to end, times the core matrix give the
  pre-activation row `x`; the row sum of `x` over 768 gives the mean, the row sum of the squared deviations over
  768 the variance; and the normalised row, cut in its three thirds, goes through the gates.  Every step is the
  corresponding step of `Cert.Gru.cell` on the rows of the blocks; no algebraic law is used.
-/
import proofs.«140806_j56315611185367_2_alg».proof.Proof.Gen.KernelIdeal.Skeleton
import proofs.«140806_j56315611185367_2_alg».proof.Proof.Spec
import proofs.«140806_j56315611185367_2_alg».proof.Proof.LibPlainMatmul
import proofs.«140806_j56315611185367_2_alg».proof.Proof.LibColumnCast
import proofs.«140806_j56315611185367_2_alg».proof.Proof.LibColumnBroadcast
import proofs.«140806_j56315611185367_2_alg».proof.Proof.LibConcatColumns
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Gru
open Cert.LibColumnCast Cert.LibColumnBroadcast Cert.LibConcatColumns

/-- The three products are plain matrix products. -/
theorem dot128_eq : dot_S2048x128_S128x256_S2048x256_1_0_0_1_n_n = DotDims.plain 2048 128 256 := rfl
theorem dot16_eq : dot_S2048x16_S16x256_S2048x256_1_0_0_1_n_n = DotDims.plain 2048 16 256 := rfl
theorem dot512_eq : dot_S2048x512_S512x768_S2048x768_1_0_0_1_n_n = DotDims.plain 2048 512 768 := rfl

/-- The sum of a row of a 2048 × 768 block. -/
theorem rowsum (X : FVec Ideal S2048x768 .f32) (h : S2048x768.Reduces [1] S2048) (hφ : FKind.Formats .f32)
    (hacc : (0x00000000#32 : BitVec 32) = FKind.add.neutral .f32 hφ) (p : Fin 2048) :
    multiReduction .add [1] S2048 X 0x00000000#32 h hφ hacc (ix1 p) = ∑ n : Fin 768, X (ix2 p n) := by
  refine (Ideal.multiReduction_add_single X _ h hφ hacc (ix1 p)).trans ?_
  show (∑ n : Fin 768, X (h.lift (ix1 p) n)) = _
  refine Finset.sum_congr rfl fun n _ => congrArg X ?_
  funext a
  apply Fin.ext
  match a with
  | ⟨0, _⟩ => rfl
  | ⟨1, _⟩ => rfl

/-- The mean of a row: the row sum, kept as a column, over 768. -/
theorem colmean (X : FVec Ideal S2048x768 .f32) (h : S2048x768.Reduces [1] S2048) (hφ : FKind.Formats .f32)
    (hacc : (0x00000000#32 : BitVec 32) = FKind.add.neutral .f32 hφ) (hs : S2048.ShapeCasts S2048x1) (p : Fin 2048) :
    divf (shapeCast S2048x1 (multiReduction .add [1] S2048 X 0x00000000#32 h hφ hacc) hs)
        (broadcast S2048x1 (Scalar.ofBits .f32 0x44400000#32)) (ix2 p (0 : Fin 1))
      = mean (fun n => X (ix2 p n)) := by
  show Ideal.div (shapeCast S2048x1 (multiReduction .add [1] S2048 X 0x00000000#32 h hφ hacc) hs (ix2 p (0 : Fin 1))) width = _
  rw [shapeCast_a_a1_apply, rowsum]
  rfl

/-- The token row: the two projection products and the bias. -/
theorem token_eq (P1 : FVec Ideal S2048x128 .f32) (P2 : FVec Ideal S2048x16 .f32) (P3 : FVec Ideal S128x256 .bf16)
    (P4 : FVec Ideal S16x256 .bf16) (P5 : FVec Ideal S1x256 .f32) (p : Fin 2048) (h : Fin 256) :
    addf (F := Ideal) (addf (matmul (F := Ideal) dot_S2048x128_S128x256_S2048x256_1_0_0_1_n_n none (truncf .bf16 P1 bitsLt_bf16_f32)
            P3 (constant (F := Ideal) S2048x256 .f32 0x00000000#32))
          (matmul (F := Ideal) dot_S2048x16_S16x256_S2048x256_1_0_0_1_n_n none (truncf .bf16 P2 bitsLt_bf16_f32)
            P4 (constant (F := Ideal) S2048x256 .f32 0x00000000#32)))
        (broadcastTo S2048x256 P5 broadcasts_S1x256_S2048x256) (ix2 p h)
      = tok (fun k => P1 (ix2 p k)) (fun k => P2 (ix2 p k)) (fun k h => P3 (ix2 k h)) (fun k h => P4 (ix2 k h))
          (fun h => P5 (ix2 (0 : Fin 1) h)) h := by
  simp only [addf_apply]
  rw [dot128_eq, dot16_eq, matmul_plain_zero_apply, matmul_plain_zero_apply, broadcastTo_1b_ab_apply]
  rfl

/-- The pre-activation row: the token row and the deterministic row, end to end, times the core matrix. -/
theorem pre_eq (P0 : Vec Ideal S2048x256 .f32) (P1 : Vec Ideal S2048x128 .f32) (P2 : Vec Ideal S2048x16 .f32)
    (P3 : Vec Ideal S128x256 .bf16) (P4 : Vec Ideal S16x256 .bf16) (P5 : Vec Ideal S1x256 .f32)
    (P6 : Vec Ideal S512x768 .bf16) (p : Fin 2048) (n : Fin 768) :
    k0_pay2 P0 P1 P2 P3 P4 P5 P6 (ix2 p n)
      = pre (cat (tok (fun k => P1 (ix2 p k)) (fun k => P2 (ix2 p k)) (fun k h => P3 (ix2 k h))
                  (fun k h => P4 (ix2 k h)) (fun h => P5 (ix2 (0 : Fin 1) h))) (fun k => P0 (ix2 p k)))
          (fun j n => P6 (ix2 j n)) n := by
  unfold k0_pay2
  simp only [shapeCast_self]
  rw [dot512_eq, matmul_plain_zero_apply]
  unfold pre
  refine Finset.sum_congr rfl fun j _ => ?_
  show _ * P6 (ix2 j n) = _ * P6 (ix2 j n)
  refine congrArg (· * P6 (ix2 j n)) ?_
  unfold cat
  by_cases hj : j.val < 256
  · rw [dif_pos hj, concat_cols_left _ _ _ p j ⟨j.val, hj⟩ rfl]
    simp only [shapeCast_self]
    exact token_eq P1 P2 P3 P4 P5 p ⟨j.val, hj⟩
  · rw [dif_neg hj, concat_cols_right _ _ _ p j ⟨j.val - 256, by omega⟩ (by show j.val - 256 + 256 = j.val; omega)]
    rfl

/-- The mean of the pre-activation row. -/
theorem mean_eq (P0 : Vec Ideal S2048x256 .f32) (P1 : Vec Ideal S2048x128 .f32) (P2 : Vec Ideal S2048x16 .f32)
    (P3 : Vec Ideal S128x256 .bf16) (P4 : Vec Ideal S16x256 .bf16) (P5 : Vec Ideal S1x256 .f32)
    (P6 : Vec Ideal S512x768 .bf16) (p : Fin 2048) :
    k0_pay3 P0 P1 P2 P3 P4 P5 P6 (ix2 p (0 : Fin 1)) = mean (fun n => k0_pay2 P0 P1 P2 P3 P4 P5 P6 (ix2 p n)) := by
  unfold k0_pay3
  exact colmean _ _ _ _ _ p

/-- The deviations of the pre-activation row from its mean. -/
theorem dev_eq (P0 : Vec Ideal S2048x256 .f32) (P1 : Vec Ideal S2048x128 .f32) (P2 : Vec Ideal S2048x16 .f32)
    (P3 : Vec Ideal S128x256 .bf16) (P4 : Vec Ideal S16x256 .bf16) (P5 : Vec Ideal S1x256 .f32)
    (P6 : Vec Ideal S512x768 .bf16) (p : Fin 2048) (n : Fin 768) :
    k0_pay4 P0 P1 P2 P3 P4 P5 P6 (ix2 p n)
      = k0_pay2 P0 P1 P2 P3 P4 P5 P6 (ix2 p n) - mean (fun n => k0_pay2 P0 P1 P2 P3 P4 P5 P6 (ix2 p n)) := by
  unfold k0_pay4
  show k0_pay2 P0 P1 P2 P3 P4 P5 P6 (ix2 p n)
      - broadcastTo S2048x768 (k0_pay3 P0 P1 P2 P3 P4 P5 P6) broadcasts_S2048x1_S2048x768 (ix2 p n) = _
  rw [broadcastTo_a1_ab_apply, mean_eq]

/-- The variance of the pre-activation row, and its offset. -/
theorem var_eq (P0 : Vec Ideal S2048x256 .f32) (P1 : Vec Ideal S2048x128 .f32) (P2 : Vec Ideal S2048x16 .f32)
    (P3 : Vec Ideal S128x256 .bf16) (P4 : Vec Ideal S16x256 .bf16) (P5 : Vec Ideal S1x256 .f32)
    (P6 : Vec Ideal S512x768 .bf16) (p : Fin 2048) :
    k0_pay5 P0 P1 P2 P3 P4 P5 P6 (ix2 p (0 : Fin 1))
      = mean (fun k => (k0_pay2 P0 P1 P2 P3 P4 P5 P6 (ix2 p k) - mean (fun n => k0_pay2 P0 P1 P2 P3 P4 P5 P6 (ix2 p n)))
          * (k0_pay2 P0 P1 P2 P3 P4 P5 P6 (ix2 p k) - mean (fun n => k0_pay2 P0 P1 P2 P3 P4 P5 P6 (ix2 p n)))) + eps := by
  unfold k0_pay5
  refine (congrArg (· + eps) (colmean (mulf (k0_pay4 P0 P1 P2 P3 P4 P5 P6) (k0_pay4 P0 P1 P2 P3 P4 P5 P6))
    reduces_S2048x768_S2048 (.inl rfl) rfl shapeCasts_S2048_S2048x1 p)).trans ?_
  simp only [mulf_apply, dev_eq]

/-- The elementwise functions read at an index. -/
theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl
theorem rsqrt_apply {s : Shape} (x : FVec Ideal s .f32) (i : s.Idx) : rsqrt x i = Ideal.rsqrt (x i) := rfl

/-- The gates, from the deviations `v34`, the variance column `v36`, the gain `v40` and the offset `v44`: the
    normalised row is cut in its three thirds at columns `q`, `q + 256` and `q + 512`. -/
theorem gate_eq (v0 : Vec Ideal S2048x256 .f32) (v34 : FVec Ideal S2048x768 .f32) (v36 : FVec Ideal S2048x1 .f32)
    (v40 v44 : Vec Ideal S1x768 .f32) (p : Fin 2048) (q : Fin 256) :
    k0_pay1 v0 v34 v36 v40 v44 (ix2 p q)
      = gate (fun n => v34 (ix2 p n) * Ideal.rsqrt (v36 (ix2 p (0 : Fin 1))) * v40 (ix2 (0 : Fin 1) n) + v44 (ix2 (0 : Fin 1) n))
          (fun k => v0 (ix2 p k)) q := by
  unfold k0_pay1
  simp only [shapeCast_self]
  generalize hY : addf (mulf (mulf v34 (broadcastTo S2048x768 (rsqrt v36) broadcasts_S2048x1_S2048x768))
      (broadcastTo S2048x768 v40 broadcasts_S1x768_S2048x768)) (broadcastTo S2048x768 v44 broadcasts_S1x768_S2048x768) = Y
  have hy : ∀ n : Fin 768, Y (ix2 p n)
      = v34 (ix2 p n) * Ideal.rsqrt (v36 (ix2 p (0 : Fin 1))) * v40 (ix2 (0 : Fin 1) n) + v44 (ix2 (0 : Fin 1) n) := by
    intro n
    rw [← hY]
    simp only [addf_apply, mulf_apply]
    rw [broadcastTo_a1_ab_apply, broadcastTo_1b_ab_apply, broadcastTo_1b_ab_apply]
    rfl
  have s0 : extractStridedSlice S2048x256 ![0, 0] Y slices_S2048x768_o0_0_S2048x256 (ix2 p q) = Y (ix2 p (c₀ q)) :=
    extractStridedSlice_apply _ _ _ _ _ (fun a => by
      match a with
      | ⟨0, _⟩ => exact (Nat.zero_add _).symm
      | ⟨1, _⟩ => exact (Nat.zero_add _).symm)
  have s1 : extractStridedSlice S2048x256 ![0, 256] Y slices_S2048x768_o0_256_S2048x256 (ix2 p q) = Y (ix2 p (c₁ q)) :=
    extractStridedSlice_apply _ _ _ _ _ (fun a => by
      match a with
      | ⟨0, _⟩ => exact (Nat.zero_add _).symm
      | ⟨1, _⟩ => exact Nat.add_comm q.val 256)
  have s2 : extractStridedSlice S2048x256 ![0, 512] Y slices_S2048x768_o0_512_S2048x256 (ix2 p q) = Y (ix2 p (c₂ q)) :=
    extractStridedSlice_apply _ _ _ _ _ (fun a => by
      match a with
      | ⟨0, _⟩ => exact (Nat.zero_add _).symm
      | ⟨1, _⟩ => exact Nat.add_comm q.val 512)
  simp only [addf_apply, mulf_apply, subf_apply, broadcast_apply, logistic_apply, tanh_apply]
  rw [s0, s1, s2, hy, hy, hy]
  rfl

/-- One grid step's result at row `p`, column `q` of its block is the cell of the blocks' rows `p`. -/
theorem payload_cell (P0 : Vec Ideal S2048x256 .f32) (P1 : Vec Ideal S2048x128 .f32) (P2 : Vec Ideal S2048x16 .f32)
    (P3 : Vec Ideal S128x256 .bf16) (P4 : Vec Ideal S16x256 .bf16) (P5 : Vec Ideal S1x256 .f32)
    (P6 : Vec Ideal S512x768 .bf16) (P7 P8 : Vec Ideal S1x768 .f32) (p : Fin 2048) (q : Fin 256) :
    k0_pay1 P0 (k0_pay4 P0 P1 P2 P3 P4 P5 P6) (k0_pay5 P0 P1 P2 P3 P4 P5 P6) P7 P8 (ix2 p q)
      = cell (fun k => P1 (ix2 p k)) (fun k => P2 (ix2 p k)) (fun k => P0 (ix2 p k)) (fun k h => P3 (ix2 k h))
          (fun k h => P4 (ix2 k h)) (fun h => P5 (ix2 (0 : Fin 1) h)) (fun j n => P6 (ix2 j n))
          (fun n => P7 (ix2 (0 : Fin 1) n)) (fun n => P8 (ix2 (0 : Fin 1) n)) q := by
  rw [gate_eq]
  simp only [dev_eq, var_eq, pre_eq]
  rfl

end Cert.KernelIdeal.Body

end
-- ==== Proof.KernelValue.lean ====
/-
  The kernel's result array is the recurrent cell of the argument arrays, row by row.

  Grid step `t` works on rows `2048 t … 2048 t + 2047` of the batch: its blocks of the deterministic, stochastic and
  action arrays are those rows, its blocks of the weights are the whole weight arrays (the two halves of the projection
  matrix cut out before the launch, the bias, gain and offset rows as 1 × n arrays), and it writes back rows
  `2048 t … 2048 t + 2047` of the result.  Row `p` of what it writes is the cell of row `2048 t + p`; the 64 steps'
  blocks cover the result array, so the array ends holding the cell at every row.
-/
import proofs.«140806_j56315611185367_2_alg».proof.Proof.Gen.KernelIdeal.Frame
import proofs.«140806_j56315611185367_2_alg».proof.Proof.KernelRow
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo Cert.Gru
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has 64 steps. -/
theorem step_lt (t : Fin cfg0.N) : t.val < 64 := by
  have h := t.isLt
  have hN : cfg0.N = 64 := N_0
  omega

/-- The batch row that row `p` of step `t`'s blocks is. -/
def rowOf (t : Fin cfg0.N) (p : Fin 2048) : Fin 131072 :=
  ⟨t.val * 2048 + p.val, by have := step_lt t; have := p.isLt; omega⟩

/-- The block index maps, decided over the 64 steps: the batch windows (0, 1, 2 and the result's, 9) move down one block
    per step, the weight windows stay at the origin. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## The arrays the launch finds, written before it from the arguments -/

/-- The first 128 rows of the projection matrix. -/
theorem V_w1 (c : Dev nD) : (V m c main_v1 : S128x256.Idx → EReal)
    = truncf (F := Ideal) .bf16 (extractStridedSlice S128x256 ![0, 0] (m ((c.tc : Thread nD τ).loc main_arg3)) slices_S144x256_S128x256_0_0) bitsLt_bf16_f32 := by
  dsimp only [V, hostOps0]; after_results

/-- Its last 16 rows. -/
theorem V_w2 (c : Dev nD) : (V m c main_v3 : S16x256.Idx → EReal)
    = truncf (F := Ideal) .bf16 (extractStridedSlice S16x256 ![128, 0] (m ((c.tc : Thread nD τ).loc main_arg3)) slices_S144x256_S16x256_128_0) bitsLt_bf16_f32 := by
  dsimp only [V, hostOps0]; after_results

/-- The core matrix. -/
theorem V_cw (c : Dev nD) : (V m c main_v4 : S512x768.Idx → EReal)
    = truncf (F := Ideal) .bf16 (m ((c.tc : Thread nD τ).loc main_arg5)) bitsLt_bf16_f32 := by
  dsimp only [V, hostOps0]; after_results

/-- The bias, the gain and the offset as 1 × n arrays. -/
theorem V_b (c : Dev nD) : (V m c main_v5 : S1x256.Idx → EReal)
    = shapeCast S1x256 (m ((c.tc : Thread nD τ).loc main_arg4)) shapeCasts_S256_S1x256 := by
  dsimp only [V, hostOps0]; after_results; rfl
theorem V_g (c : Dev nD) : (V m c main_v6 : S1x768.Idx → EReal)
    = shapeCast S1x768 (m ((c.tc : Thread nD τ).loc main_arg6)) shapeCasts_S768_S1x768 := by
  dsimp only [V, hostOps0]; after_results; rfl
theorem V_β (c : Dev nD) : (V m c main_v7 : S1x768.Idx → EReal)
    = shapeCast S1x768 (m ((c.tc : Thread nD τ).loc main_arg7)) shapeCasts_S768_S1x768 := by
  dsimp only [V, hostOps0]; after_results; rfl

/-! ## Where a block's entry sits in its array -/

theorem emb0 (t : Fin cfg0.N) (p : Fin 2048) (k : Fin 256) :
    ((cfg0.win 0).blk t).view.emb (ix2 p k) = (ix2 (rowOf t p) k : S131072x256.Idx) := by
  obtain ⟨⟨e0, e1⟩, -⟩ := idx_facts t
  funext a; apply Fin.ext
  match a with
  | ⟨0, _⟩ => show win0_0.index t (0 : Fin 2) * 2048 + 1 * p.val = t.val * 2048 + p.val; rw [e0]; omega
  | ⟨1, _⟩ => show win0_0.index t (1 : Fin 2) * 256 + 1 * k.val = k.val; rw [e1]; omega

theorem emb1 (t : Fin cfg0.N) (p : Fin 2048) (k : Fin 128) :
    ((cfg0.win 1).blk t).view.emb (ix2 p k) = (ix2 (rowOf t p) k : S131072x128.Idx) := by
  obtain ⟨-, ⟨e0, e1⟩, -⟩ := idx_facts t
  funext a; apply Fin.ext
  match a with
  | ⟨0, _⟩ => show win0_1.index t (0 : Fin 2) * 2048 + 1 * p.val = t.val * 2048 + p.val; rw [e0]; omega
  | ⟨1, _⟩ => show win0_1.index t (1 : Fin 2) * 128 + 1 * k.val = k.val; rw [e1]; omega

theorem emb2 (t : Fin cfg0.N) (p : Fin 2048) (k : Fin 16) :
    ((cfg0.win 2).blk t).view.emb (ix2 p k) = (ix2 (rowOf t p) k : S131072x16.Idx) := by
  obtain ⟨-, -, ⟨e0, e1⟩, -⟩ := idx_facts t
  funext a; apply Fin.ext
  match a with
  | ⟨0, _⟩ => show win0_2.index t (0 : Fin 2) * 2048 + 1 * p.val = t.val * 2048 + p.val; rw [e0]; omega
  | ⟨1, _⟩ => show win0_2.index t (1 : Fin 2) * 16 + 1 * k.val = k.val; rw [e1]; omega

theorem emb3 (t : Fin cfg0.N) (k : Fin 128) (h : Fin 256) :
    ((cfg0.win 3).blk t).view.emb (ix2 k h) = (ix2 k h : S128x256.Idx) := by
  obtain ⟨-, -, -, ⟨e0, e1⟩, -⟩ := idx_facts t
  funext a; apply Fin.ext
  match a with
  | ⟨0, _⟩ => show win0_3.index t (0 : Fin 2) * 128 + 1 * k.val = k.val; rw [e0]; omega
  | ⟨1, _⟩ => show win0_3.index t (1 : Fin 2) * 256 + 1 * h.val = h.val; rw [e1]; omega

theorem emb4 (t : Fin cfg0.N) (k : Fin 16) (h : Fin 256) :
    ((cfg0.win 4).blk t).view.emb (ix2 k h) = (ix2 k h : S16x256.Idx) := by
  obtain ⟨-, -, -, -, ⟨e0, e1⟩, -⟩ := idx_facts t
  funext a; apply Fin.ext
  match a with
  | ⟨0, _⟩ => show win0_4.index t (0 : Fin 2) * 16 + 1 * k.val = k.val; rw [e0]; omega
  | ⟨1, _⟩ => show win0_4.index t (1 : Fin 2) * 256 + 1 * h.val = h.val; rw [e1]; omega

theorem emb5 (t : Fin cfg0.N) (u : Fin 1) (h : Fin 256) :
    ((cfg0.win 5).blk t).view.emb (ix2 u h) = (ix2 u h : S1x256.Idx) := by
  obtain ⟨-, -, -, -, -, ⟨e0, e1⟩, -⟩ := idx_facts t
  funext a; apply Fin.ext
  match a with
  | ⟨0, _⟩ => show win0_5.index t (0 : Fin 2) * 1 + 1 * u.val = u.val; rw [e0]; omega
  | ⟨1, _⟩ => show win0_5.index t (1 : Fin 2) * 256 + 1 * h.val = h.val; rw [e1]; omega

theorem emb6 (t : Fin cfg0.N) (j : Fin 512) (n : Fin 768) :
    ((cfg0.win 6).blk t).view.emb (ix2 j n) = (ix2 j n : S512x768.Idx) := by
  obtain ⟨-, -, -, -, -, -, ⟨e0, e1⟩, -⟩ := idx_facts t
  funext a; apply Fin.ext
  match a with
  | ⟨0, _⟩ => show win0_6.index t (0 : Fin 2) * 512 + 1 * j.val = j.val; rw [e0]; omega
  | ⟨1, _⟩ => show win0_6.index t (1 : Fin 2) * 768 + 1 * n.val = n.val; rw [e1]; omega

theorem emb7 (t : Fin cfg0.N) (u : Fin 1) (n : Fin 768) :
    ((cfg0.win 7).blk t).view.emb (ix2 u n) = (ix2 u n : S1x768.Idx) := by
  obtain ⟨-, -, -, -, -, -, -, ⟨e0, e1⟩, -⟩ := idx_facts t
  funext a; apply Fin.ext
  match a with
  | ⟨0, _⟩ => show win0_7.index t (0 : Fin 2) * 1 + 1 * u.val = u.val; rw [e0]; omega
  | ⟨1, _⟩ => show win0_7.index t (1 : Fin 2) * 768 + 1 * n.val = n.val; rw [e1]; omega

theorem emb8 (t : Fin cfg0.N) (u : Fin 1) (n : Fin 768) :
    ((cfg0.win 8).blk t).view.emb (ix2 u n) = (ix2 u n : S1x768.Idx) := by
  obtain ⟨-, -, -, -, -, -, -, -, ⟨e0, e1⟩, -⟩ := idx_facts t
  funext a; apply Fin.ext
  match a with
  | ⟨0, _⟩ => show win0_8.index t (0 : Fin 2) * 1 + 1 * u.val = u.val; rw [e0]; omega
  | ⟨1, _⟩ => show win0_8.index t (1 : Fin 2) * 768 + 1 * n.val = n.val; rw [e1]; omega

theorem emb9 (t : Fin cfg0.N) (p : Fin 2048) (q : Fin 256) :
    ((cfg0.win 9).blk t).view.emb (ix2 p q) = (ix2 (rowOf t p) q : S131072x256.Idx) := by
  obtain ⟨-, -, -, -, -, -, -, -, -, ⟨e0, e1⟩⟩ := idx_facts t
  funext a; apply Fin.ext
  match a with
  | ⟨0, _⟩ => show win0_9.index t (0 : Fin 2) * 2048 + 1 * p.val = t.val * 2048 + p.val; rw [e0]; omega
  | ⟨1, _⟩ => show win0_9.index t (1 : Fin 2) * 256 + 1 * q.val = q.val; rw [e1]; omega

/-! ## Each step's blocks, as rows of the argument arrays -/

theorem blk0 (c : Dev nD) (t : Fin cfg0.N) (p : Fin 2048) (k : Fin 256) :
    (iblk m c 0 t : Vec Ideal S2048x256 .f32) (ix2 p k)
      = (m ((c.tc : Thread nD τ).loc main_arg0) : S131072x256.Idx → EReal) (ix2 (rowOf t p) k) := by
  unfold iblk
  rw [View.read_apply]
  show V m c main_arg0 (((cfg0.win 0).blk t).view.emb (ix2 p k)) = _
  rw [emb0 t p k, V_main_arg0 m c]

theorem blk1 (c : Dev nD) (t : Fin cfg0.N) (p : Fin 2048) (k : Fin 128) :
    (iblk m c 1 t : Vec Ideal S2048x128 .f32) (ix2 p k)
      = (m ((c.tc : Thread nD τ).loc main_arg1) : S131072x128.Idx → EReal) (ix2 (rowOf t p) k) := by
  unfold iblk
  rw [View.read_apply]
  show V m c main_arg1 (((cfg0.win 1).blk t).view.emb (ix2 p k)) = _
  rw [emb1 t p k, V_main_arg1 m c]

theorem blk2 (c : Dev nD) (t : Fin cfg0.N) (p : Fin 2048) (k : Fin 16) :
    (iblk m c 2 t : Vec Ideal S2048x16 .f32) (ix2 p k)
      = (m ((c.tc : Thread nD τ).loc main_arg2) : S131072x16.Idx → EReal) (ix2 (rowOf t p) k) := by
  unfold iblk
  rw [View.read_apply]
  show V m c main_arg2 (((cfg0.win 2).blk t).view.emb (ix2 p k)) = _
  rw [emb2 t p k, V_main_arg2 m c]

theorem blk3 (c : Dev nD) (t : Fin cfg0.N) (k : Fin 128) (h : Fin 256) :
    (iblk m c 3 t : Vec Ideal S128x256 .bf16) (ix2 k h)
      = (m ((c.tc : Thread nD τ).loc main_arg3) : S144x256.Idx → EReal) (ix2 (lo k) h) := by
  unfold iblk
  rw [View.read_apply]
  show V m c main_v1 (((cfg0.win 3).blk t).view.emb (ix2 k h)) = _
  rw [emb3 t k h]
  exact (congrFun (V_w1 m c) (ix2 k h)).trans
    (slice2_axis0_apply 0 (m ((c.tc : Thread nD τ).loc main_arg3) : S144x256.Idx → EReal) slices_S144x256_S128x256_0_0 k h (lo k)
      (by show k.val = 0 + k.val; omega))

theorem blk4 (c : Dev nD) (t : Fin cfg0.N) (k : Fin 16) (h : Fin 256) :
    (iblk m c 4 t : Vec Ideal S16x256 .bf16) (ix2 k h)
      = (m ((c.tc : Thread nD τ).loc main_arg3) : S144x256.Idx → EReal) (ix2 (hi k) h) := by
  unfold iblk
  rw [View.read_apply]
  show V m c main_v3 (((cfg0.win 4).blk t).view.emb (ix2 k h)) = _
  rw [emb4 t k h]
  exact (congrFun (V_w2 m c) (ix2 k h)).trans
    (slice2_axis0_apply 128 (m ((c.tc : Thread nD τ).loc main_arg3) : S144x256.Idx → EReal) slices_S144x256_S16x256_128_0 k h (hi k) rfl)

theorem blk5 (c : Dev nD) (t : Fin cfg0.N) (h : Fin 256) :
    (iblk m c 5 t : Vec Ideal S1x256 .f32) (ix2 (0 : Fin 1) h)
      = (m ((c.tc : Thread nD τ).loc main_arg4) : S256.Idx → EReal) (ix1 h) := by
  unfold iblk
  rw [View.read_apply]
  show V m c main_v5 (((cfg0.win 5).blk t).view.emb (ix2 (0 : Fin 1) h)) = _
  rw [emb5 t 0 h]
  exact (congrFun (V_b m c) (ix2 (0 : Fin 1) h)).trans (shapeCast_a_1a_apply _ _ 0 h)

theorem blk6 (c : Dev nD) (t : Fin cfg0.N) (j : Fin 512) (n : Fin 768) :
    (iblk m c 6 t : Vec Ideal S512x768 .bf16) (ix2 j n)
      = (m ((c.tc : Thread nD τ).loc main_arg5) : S512x768.Idx → EReal) (ix2 j n) := by
  unfold iblk
  rw [View.read_apply]
  show V m c main_v4 (((cfg0.win 6).blk t).view.emb (ix2 j n)) = _
  rw [emb6 t j n]
  exact congrFun (V_cw m c) (ix2 j n)

theorem blk7 (c : Dev nD) (t : Fin cfg0.N) (n : Fin 768) :
    (iblk m c 7 t : Vec Ideal S1x768 .f32) (ix2 (0 : Fin 1) n)
      = (m ((c.tc : Thread nD τ).loc main_arg6) : S768.Idx → EReal) (ix1 n) := by
  unfold iblk
  rw [View.read_apply]
  show V m c main_v6 (((cfg0.win 7).blk t).view.emb (ix2 (0 : Fin 1) n)) = _
  rw [emb7 t 0 n]
  exact (congrFun (V_g m c) (ix2 (0 : Fin 1) n)).trans (shapeCast_a_1a_apply _ _ 0 n)

theorem blk8 (c : Dev nD) (t : Fin cfg0.N) (n : Fin 768) :
    (iblk m c 8 t : Vec Ideal S1x768 .f32) (ix2 (0 : Fin 1) n)
      = (m ((c.tc : Thread nD τ).loc main_arg7) : S768.Idx → EReal) (ix1 n) := by
  unfold iblk
  rw [View.read_apply]
  show V m c main_v7 (((cfg0.win 8).blk t).view.emb (ix2 (0 : Fin 1) n)) = _
  rw [emb8 t 0 n]
  exact (congrFun (V_β m c) (ix2 (0 : Fin 1) n)).trans (shapeCast_a_1a_apply _ _ 0 n)

/-! ## What a step writes back, the cover, and the run -/

/-- The result array both programs end at, on core `c`. -/
abbrev result (c : Dev nD) : S131072x256.Idx → EReal :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- Step `t` writes back rows `2048 t … 2048 t + 2047` of the cell. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  unfold out0_9
  rw [View.canon_unit_zero hz]
  simp only [View.ld_unit_zero (S := S2048x256) hz, View.ld_unit_zero (S := S2048x128) hz, View.ld_unit_zero (S := S2048x16) hz,
    View.ld_unit_zero (S := S128x256) hz, View.ld_unit_zero (S := S16x256) hz, View.ld_unit_zero (S := S1x256) hz,
    View.ld_unit_zero (S := S512x768) hz, View.ld_unit_zero (S := S1x768) hz]
  refine funext fun (j : S2048x256.Idx) => ?_
  obtain ⟨p, q, rfl⟩ : ∃ (p : Fin 2048) (q : Fin 256), j = ix2 p q := ⟨j 0, j 1, eq_ix2 j⟩
  show k0_pay1 (iblk m c 0 t) (k0_pay4 (iblk m c 0 t) (iblk m c 1 t) (iblk m c 2 t) (iblk m c 3 t) (iblk m c 4 t) (iblk m c 5 t) (iblk m c 6 t))
      (k0_pay5 (iblk m c 0 t) (iblk m c 1 t) (iblk m c 2 t) (iblk m c 3 t) (iblk m c 4 t) (iblk m c 5 t) (iblk m c 6 t))
      (iblk m c 7 t) (iblk m c 8 t) (ix2 p q)
    = result m c (((cfg0.win 9).blk t).view.emb (ix2 p q))
  rw [emb9 t p q]
  refine (Body.payload_cell (iblk m c 0 t) (iblk m c 1 t) (iblk m c 2 t) (iblk m c 3 t) (iblk m c 4 t) (iblk m c 5 t)
    (iblk m c 6 t) (iblk m c 7 t) (iblk m c 8 t) p q).trans ?_
  show _ = cellAt _ _ _ _ _ _ _ _ (rowOf t p) q
  unfold cellAt
  simp only [blk0 m c t, blk1 m c t, blk2 m c t, blk3 m c t, blk4 m c t, blk5 m c t, blk6 m c t, blk7 m c t, blk8 m c t]

/-- An index of the result array is in step `t`'s block iff each coordinate is in the block's range. -/
theorem mem_blk (t : Fin cfg0.N) (i : S131072x256.Idx) :
    i ∈ ((cfg0.win 9).blk t).view.set ↔ ∀ a : Fin 2, win0_9.index t a * S2048x256.size a ≤ (i a).val
      ∧ (i a).val < win0_9.index t a * S2048x256.size a + S2048x256.size a := by
  show i ∈ ((View.whole main_v8).slice (win0_9.rect t)).set ↔ _
  rw [View.set_slice_whole, Rect.mem_set_unit]
  exact Iff.rfl

/-- Row `r` of the result is written back by step `r / 2048`. -/
theorem cover (i : S131072x256.Idx) :
    ∃ t : Fin cfg0.N, (cfg0.win 9).flush t = true ∧ i ∈ ((cfg0.win 9).blk t).view.set := by
  have hi0 : (i 0).val < 131072 := (i 0).isLt
  have hi1 : (i 1).val < 256 := (i 1).isLt
  have hN : cfg0.N = 64 := N_0
  have hlt : (i 0).val / 2048 < cfg0.N := by rw [hN]; omega
  obtain ⟨-, -, -, -, -, -, -, -, -, ⟨e0, e1⟩⟩ := idx_facts ⟨(i 0).val / 2048, hlt⟩
  refine ⟨⟨(i 0).val / 2048, hlt⟩, flush0_9 _, ?_⟩
  rw [mem_blk]
  intro a
  match a with
  | ⟨0, _⟩ =>
    show win0_9.index ⟨(i 0).val / 2048, hlt⟩ (0 : Fin 2) * 2048 ≤ (i 0).val
      ∧ (i 0).val < win0_9.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_9.index ⟨(i 0).val / 2048, hlt⟩ (1 : Fin 2) * 256 ≤ (i 1).val
      ∧ (i 1).val < win0_9.index ⟨(i 0).val / 2048, hlt⟩ (1 : Fin 2) * 256 + 256
    rw [e1]
    omega

/-- So the result array ends holding the cell at every row. -/
theorem final (c : Dev nD) : (dats m 0 c).arrAt 9 cfg0.N = result m c :=
  (dats m 0 c).arrAt_eq_of_cover 9 (result m c) (fun t _ => flushed_eq m c t) cover

/-- The run, read: the result array at the cell of the arguments, the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 9).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Hand

end
-- ==== Proof.RefValue.lean ====
/-
  The reference computes, at row `r` and column `c` of the batch, one row of the recurrent cell.

  Read one operation at a time: the stochastic and action rows laid end to end, times the whole projection matrix, is the
  sum over its first 128 rows plus the sum over its last 16 (the one regrouping of a sum in this certificate); the token
  row and the deterministic row, end to end, times the core matrix is the pre-activation row; mean, variance, the
  normalised row and the gates follow, the logistic function spelt as the quotient 1 / (1 + e^(−x)).
-/
import proofs.«140806_j56315611185367_2_alg».proof.Proof.Gen.ReferenceIdeal.Read
import proofs.«140806_j56315611185367_2_alg».proof.Proof.Spec
import proofs.«140806_j56315611185367_2_alg».proof.Proof.LibConcatColumns

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Gru Cert.LibConcatColumns

variable (x0 : (⟨S131072x256, .f32⟩ : BufTy).Contents (Elt Ideal)) (x1 : (⟨S131072x128, .f32⟩ : BufTy).Contents (Elt Ideal))
  (x2 : (⟨S131072x16, .f32⟩ : BufTy).Contents (Elt Ideal)) (x3 : (⟨S144x256, .f32⟩ : BufTy).Contents (Elt Ideal))
  (x4 : (⟨S256, .f32⟩ : BufTy).Contents (Elt Ideal)) (x5 : (⟨S512x768, .f32⟩ : BufTy).Contents (Elt Ideal))
  (x6 x7 : (⟨S768, .f32⟩ : BufTy).Contents (Elt Ideal))

/-! ## The rows of the arguments -/

/-- The token row at batch row `r`. -/
abbrev tokRow (r : Fin 131072) : Fin 256 → EReal :=
  tok (fun k => x1 (ix2 r k)) (fun k => x2 (ix2 r k)) (fun k h => x3 (ix2 (lo k) h)) (fun k h => x3 (ix2 (hi k) h))
    (fun h => x4 (ix1 h))

/-- The pre-activation row at batch row `r`. -/
abbrev preRow (r : Fin 131072) : Fin 768 → EReal :=
  pre (cat (tokRow x1 x2 x3 x4 r) (fun k => x0 (ix2 r k))) (fun j n => x5 (ix2 j n))

/-! ## Where each operation reads its operand -/

theorem lidx1 (r : Fin 131072) (h : Fin 256) (k : Fin 144) : lidx_main_v1 (ix2 r h) k = ix2 r k :=
  funext fun a => Fin.ext (by match a with | ⟨0, _⟩ => rfl | ⟨1, _⟩ => rfl)
theorem ridx1 (r : Fin 131072) (h : Fin 256) (k : Fin 144) : ridx_main_v1 (ix2 r h) k = ix2 k h :=
  funext fun a => Fin.ext (by match a with | ⟨0, _⟩ => rfl | ⟨1, _⟩ => rfl)
theorem idxb (r : Fin 131072) (h : Fin 256) : idx_main_v2 (idx_main_v3 (ix2 r h)) = ix1 h :=
  funext fun a => Fin.ext (by match a with | ⟨0, _⟩ => rfl)
theorem lidx6 (r : Fin 131072) (n : Fin 768) (j : Fin 512) : lidx_main_v6 (ix2 r n) j = ix2 r j :=
  funext fun a => Fin.ext (by match a with | ⟨0, _⟩ => rfl | ⟨1, _⟩ => rfl)
theorem ridx6 (r : Fin 131072) (n : Fin 768) (j : Fin 512) : ridx_main_v6 (ix2 r n) j = ix2 j n :=
  funext fun a => Fin.ext (by match a with | ⟨0, _⟩ => rfl | ⟨1, _⟩ => rfl)
theorem idx7 (r : Fin 131072) (k : Fin 768) : idx_main_v7 (ix1 r) k = ix2 r k :=
  funext fun a => Fin.ext (by match a with | ⟨0, _⟩ => rfl | ⟨1, _⟩ => rfl)
theorem idx8 (r : Fin 131072) (u : Fin 1) : idx_main_v8 (ix2 r u) = ix1 r :=
  funext fun a => Fin.ext (by match a with | ⟨0, _⟩ => rfl)
theorem idx11 (r : Fin 131072) (n : Fin 768) : idx_main_v11 (ix2 r n) = ix2 r (0 : Fin 1) :=
  funext fun a => Fin.ext (by match a with | ⟨0, _⟩ => rfl | ⟨1, _⟩ => rfl)
theorem idx14 (r : Fin 131072) (k : Fin 768) : idx_main_v14 (ix1 r) k = ix2 r k :=
  funext fun a => Fin.ext (by match a with | ⟨0, _⟩ => rfl | ⟨1, _⟩ => rfl)
theorem idx15 (r : Fin 131072) (u : Fin 1) : idx_main_v15 (ix2 r u) = ix1 r :=
  funext fun a => Fin.ext (by match a with | ⟨0, _⟩ => rfl)
theorem idx18 (r : Fin 131072) (n : Fin 768) : idx_main_v18 (ix2 r n) = ix2 r (0 : Fin 1) :=
  funext fun a => Fin.ext (by match a with | ⟨0, _⟩ => rfl | ⟨1, _⟩ => rfl)
theorem idx23 (r : Fin 131072) (n : Fin 768) : idx_main_v23 (ix2 r n) = ix2 r (0 : Fin 1) :=
  funext fun a => Fin.ext (by match a with | ⟨0, _⟩ => rfl | ⟨1, _⟩ => rfl)
theorem idxg (r : Fin 131072) (n : Fin 768) : idx_main_v25 (idx_main_v26 (ix2 r n)) = ix1 n :=
  funext fun a => Fin.ext (by match a with | ⟨0, _⟩ => rfl)
theorem idxβ (r : Fin 131072) (n : Fin 768) : idx_main_v28 (idx_main_v29 (ix2 r n)) = ix1 n :=
  funext fun a => Fin.ext (by match a with | ⟨0, _⟩ => rfl)
theorem idx31 (r : Fin 131072) (c : Fin 256) : idx_main_v31 (ix2 r c) = ix2 r (c₀ c) :=
  funext fun a => Fin.ext (by match a with | ⟨0, _⟩ => rfl | ⟨1, _⟩ => rfl)
theorem idx32 (r : Fin 131072) (c : Fin 256) : idx_main_v32 (ix2 r c) = ix2 r (c₁ c) :=
  funext fun a => Fin.ext (by match a with | ⟨0, _⟩ => rfl | ⟨1, _⟩ => exact Nat.add_comm 256 c.val)
theorem idx33 (r : Fin 131072) (c : Fin 256) : idx_main_v33 (ix2 r c) = ix2 r (c₂ c) :=
  funext fun a => Fin.ext (by match a with | ⟨0, _⟩ => rfl | ⟨1, _⟩ => exact Nat.add_comm 512 c.val)

/-! ## The operations, in program order -/

/-- The stochastic and action rows laid end to end: the first 128 columns, -/
theorem v0_lo (r : Fin 131072) (k : Fin 128) : val_main_v0 (F := Ideal) x1 x2 (ix2 r (lo k)) = x1 (ix2 r k) := by
  unfold val_main_v0
  exact concat_cols_left x1 x2 _ r (lo k) k rfl

/-- and the last 16. -/
theorem v0_hi (r : Fin 131072) (k : Fin 16) : val_main_v0 (F := Ideal) x1 x2 (ix2 r (hi k)) = x2 (ix2 r k) := by
  unfold val_main_v0
  exact concat_cols_right x1 x2 _ r (hi k) k (by show k.val + 128 = 128 + k.val; omega)

/-- The token row: the product with the whole projection matrix is the sum over its first 128 rows plus the sum over its
    last 16. -/
theorem token_eq (r : Fin 131072) (h : Fin 256) :
    val_main_v4 (F := Ideal) x1 x2 x3 x4 (ix2 r h) = tokRow x1 x2 x3 x4 r h := by
  rw [val_main_v4_apply, val_main_v1_apply, val_main_v3_apply, val_main_v2_apply, sum_lo_hi]
  simp only [lidx1, ridx1, idxb, v0_lo, v0_hi]
  rfl

/-- The token row and the deterministic row laid end to end. -/
theorem joined_eq (r : Fin 131072) (j : Fin 512) :
    val_main_v5 (F := Ideal) x0 x1 x2 x3 x4 (ix2 r j) = cat (tokRow x1 x2 x3 x4 r) (fun k => x0 (ix2 r k)) j := by
  unfold val_main_v5 cat
  by_cases hj : j.val < 256
  · rw [dif_pos hj, concat_cols_left _ _ _ r j ⟨j.val, hj⟩ rfl]
    exact token_eq x1 x2 x3 x4 r ⟨j.val, hj⟩
  · rw [dif_neg hj, concat_cols_right _ _ _ r j ⟨j.val - 256, by omega⟩ (by show j.val - 256 + 256 = j.val; omega)]

/-- The pre-activation row. -/
theorem pre_eq (r : Fin 131072) (n : Fin 768) :
    val_main_v6 (F := Ideal) x0 x1 x2 x3 x4 x5 (ix2 r n) = preRow x0 x1 x2 x3 x4 x5 r n := by
  rw [val_main_v6_apply]
  simp only [lidx6, ridx6, joined_eq]
  rfl

/-- Its mean. -/
theorem mean_eq (r : Fin 131072) :
    val_main_v10 (F := Ideal) x0 x1 x2 x3 x4 x5 (ix2 r (0 : Fin 1)) = mean (preRow x0 x1 x2 x3 x4 x5 r) := by
  rw [val_main_v10_apply, val_main_v8_apply, val_main_v9_apply, val_main_v7_apply, val_main_cst_0_apply, val_main_cst_apply]
  simp only [idx8, idx7, pre_eq, Ideal.ofBits_def, Ideal.ofBits_zero_f32, zero_add]
  rfl

/-- The deviations from the mean, as the variance reads them, -/
theorem dev_eq (r : Fin 131072) (n : Fin 768) :
    val_main_v12 (F := Ideal) x0 x1 x2 x3 x4 x5 (ix2 r n)
      = preRow x0 x1 x2 x3 x4 x5 r n - mean (preRow x0 x1 x2 x3 x4 x5 r) := by
  rw [val_main_v12_apply, val_main_v11_apply, idx11, pre_eq, mean_eq]
  rfl

/-- and as the normalised row reads them. -/
theorem dev_eq' (r : Fin 131072) (n : Fin 768) :
    val_main_v19 (F := Ideal) x0 x1 x2 x3 x4 x5 (ix2 r n)
      = preRow x0 x1 x2 x3 x4 x5 r n - mean (preRow x0 x1 x2 x3 x4 x5 r) := by
  rw [val_main_v19_apply, val_main_v18_apply, idx18, pre_eq, mean_eq]
  rfl

/-- The variance and its offset. -/
theorem var_eq (r : Fin 131072) :
    val_main_v21 (F := Ideal) x0 x1 x2 x3 x4 x5 (ix2 r (0 : Fin 1))
      = mean (fun k => (preRow x0 x1 x2 x3 x4 x5 r k - mean (preRow x0 x1 x2 x3 x4 x5 r))
          * (preRow x0 x1 x2 x3 x4 x5 r k - mean (preRow x0 x1 x2 x3 x4 x5 r))) + eps := by
  rw [val_main_v21_apply, val_main_v17_apply, val_main_v15_apply, val_main_v16_apply, val_main_v14_apply,
    val_main_v20_apply, val_main_cst_1_apply, val_main_cst_2_apply, val_main_cst_3_apply]
  simp only [idx15, idx14, val_main_v13_apply, dev_eq, Ideal.ofBits_def, Ideal.ofBits_zero_f32, zero_add]
  rfl

/-- The normalised row. -/
theorem normed_eq (r : Fin 131072) (n : Fin 768) :
    val_main_v30 (F := Ideal) x0 x1 x2 x3 x4 x5 x6 x7 (ix2 r n)
      = normed (preRow x0 x1 x2 x3 x4 x5 r) (fun n => x6 (ix1 n)) (fun n => x7 (ix1 n)) n := by
  rw [val_main_v30_apply, val_main_v27_apply, val_main_v24_apply, val_main_v23_apply, val_main_v22_apply,
    val_main_v26_apply, val_main_v25_apply, val_main_v29_apply, val_main_v28_apply, idx23, idxg, idxβ, dev_eq', var_eq]
  rfl

/-- The logistic function of the reset third, as the reference spells it, -/
theorem reset_eq (r : Fin 131072) (c : Fin 256) :
    val_main_v39 (F := Ideal) x0 x1 x2 x3 x4 x5 x6 x7 (ix2 r c)
      = Ideal.logistic (normed (preRow x0 x1 x2 x3 x4 x5 r) (fun n => x6 (ix1 n)) (fun n => x7 (ix1 n)) (c₀ c)) := by
  rw [val_main_v39_apply, val_main_v38_apply, val_main_v37_apply, val_main_v36_apply, val_main_v35_apply,
    val_main_v34_apply, val_main_v31_apply, val_main_cst_4_apply, val_main_cst_5_apply, idx31, normed_eq]
  exact logistic_spelt _

/-- and of the update third less one. -/
theorem update_eq (r : Fin 131072) (c : Fin 256) :
    val_main_v49 (F := Ideal) x0 x1 x2 x3 x4 x5 x6 x7 (ix2 r c)
      = Ideal.logistic (normed (preRow x0 x1 x2 x3 x4 x5 r) (fun n => x6 (ix1 n)) (fun n => x7 (ix1 n)) (c₂ c) - one) := by
  rw [val_main_v49_apply, val_main_v48_apply, val_main_v47_apply, val_main_v46_apply, val_main_v45_apply,
    val_main_v44_apply, val_main_v43_apply, val_main_v42_apply, val_main_v33_apply, val_main_cst_6_apply,
    val_main_cst_7_apply, val_main_cst_8_apply, idx33, normed_eq]
  exact logistic_spelt _

/-- The reference's result at row `r`, column `c` is the cell there. -/
theorem result_eq (r : Fin 131072) (c : Fin 256) :
    val_main_v54 (F := Ideal) x0 x1 x2 x3 x4 x5 x6 x7 (ix2 r c) = cellAt x0 x1 x2 x3 x4 x5 x6 x7 r c := by
  rw [val_main_v54_apply, val_main_v50_apply, val_main_v53_apply, val_main_v52_apply, val_main_v51_apply,
    val_main_v41_apply, val_main_v40_apply, val_main_v32_apply, val_main_cst_9_apply, idx32, update_eq, reset_eq, normed_eq]
  rfl

/-- The reference's result array is `G` of the argument arrays. -/
theorem result_G : val_main_v54 (F := Ideal) x0 x1 x2 x3 x4 x5 x6 x7 = G x0 x1 x2 x3 x4 x5 x6 x7 := by
  funext i
  obtain ⟨r, c, rfl⟩ : ∃ (r : Fin 131072) (c : Fin 256), i = ix2 r c := ⟨i 0, i 1, eq_ix2 i⟩
  exact result_eq x0 x1 x2 x3 x4 x5 x6 x7 r c

end Cert.ReferenceIdeal.RefValue

end
-- ==== Proof.lean ====
/-
  A gated recurrent cell over a batch of 131072 rows: the kernel against its reference, on the extended reals.

  Both programs compute, for every batch row, the projected token  tok = [s, a] · W + b  (s the stochastic state, a the
  action), the pre-activation  x = [tok, d] · C  (d the deterministic state), its layer normalisation with gain g and
  offset β, and from the three thirds of the normalised row the gated update of d.  The kernel works through the batch in
  64 steps of 2048 rows, multiplies s and a by the first 128 and the last 16 rows of W separately and adds the products,
  and calls the logistic function by name; the reference multiplies the joined row [s, a] by the whole of W and spells
  the logistic function as 1 / (1 + e^(−x)).  At exact values a change of float format is the identity and both spellings
  of the logistic function are one function, so the only difference is the grouping of one finite sum:
  Σ_{k<144} = Σ_{k<128} + Σ_{128≤k<144}, which holds in any commutative monoid.  No finiteness of the inputs is needed.

  `Proof/Spec.lean` states one row of the cell; `Proof/KernelRow.lean` reads one grid step's arithmetic as that row,
  `Proof/KernelValue.lean` the kernel's whole result array; `Proof/RefValue.lean` reads the reference's operations as
  the same function.  The three frames are the generated ones (the reference's is its run with the result dropped), and
  the idealization rewrote nothing, so there is nothing to preserve.
-/
import proofs.«140806_j56315611185367_2_alg».proof.Defs
import proofs.«140806_j56315611185367_2_alg».proof.Proof.Gen.Kernel
import proofs.«140806_j56315611185367_2_alg».proof.Proof.Gen.Kernel.Frame
import proofs.«140806_j56315611185367_2_alg».proof.Proof.Gen.KernelIdeal
import proofs.«140806_j56315611185367_2_alg».proof.Proof.Gen.KernelIdeal.Frame
import proofs.«140806_j56315611185367_2_alg».proof.Proof.Gen.ReferenceIdeal
import proofs.«140806_j56315611185367_2_alg».proof.Proof.Gen.Pre_finite_inputs
import proofs.«140806_j56315611185367_2_alg».proof.Proof.Gen.ReferenceIdeal.Run
import proofs.«140806_j56315611185367_2_alg».proof.Proof.Gen.ReferenceIdeal.Read
import proofs.«140806_j56315611185367_2_alg».proof.Proof.KernelValue
import proofs.«140806_j56315611185367_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel at exact values. -/
theorem frame_kernel_ideal : Cert.frame_KernelIdeal := fun m ρ _ => Cert.KernelIdeal.Gen.frame m ρ

/-- So does the reference. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the cell of the arguments in their result
    arrays: the kernel's array row block by row block, the reference's operation by operation. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.RefValue.result_G]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
